-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x1024 : Shape := ⟨3, ![256, 256, 1024]⟩
abbrev S256x512x1024 : Shape := ⟨3, ![256, 512, 1024]⟩
abbrev S_ : Shape := ⟨0, ![]⟩

class Facts : Prop where
  bcast_S_S256x256x1024 : S_.BroadcastsInDim S256x256x1024 (![] : Fin 0 → Fin S256x256x1024.rank)
  reducesTo_S256x256x1024_S_d0_1_2 : S256x256x1024.ReducesTo [0, 1, 2] S_
  h_S_ : 0 < S_.numel
  bcast_S_S256x512x1024 : S_.BroadcastsInDim S256x512x1024 (![] : Fin 0 → Fin S256x512x1024.rank)
  reducesTo_S256x512x1024_S_d0_1_2 : S256x512x1024.ReducesTo [0, 1, 2] S_

variable [Facts]

def fn {F : FTy → Type} [FloatOps F] (main_arg0 : FVec F S256x256x1024 .f32) (main_arg1 : FVec F S256x512x1024 .f32) : IVec S_ 1 :=
  let main_v0 : FVec F S256x256x1024 .f32 := Host.absf main_arg0
  let main_cst : FVec F S_ .f32 := constant S_ .f32 0x7F800000#32
  let main_v1 : FVec F S256x256x1024 .f32 := broadcastInDim S256x256x1024 ![] bcast_S_S256x256x1024 main_cst
  let main_v2 : IVec S256x256x1024 1 := cmpf .olt main_v0 main_v1
  let main_c : IVec S_ 1 := constantI S_ 1 1#1
  let main_v3 : IVec S_ 1 := (fun x v => Host.reduce IntOp.andi x v reducesTo_S256x256x1024_S_d0_1_2 h_S_) main_v2 main_c
  let main_v4 : FVec F S256x512x1024 .f32 := Host.absf main_arg1
  let main_cst_0 : FVec F S_ .f32 := constant S_ .f32 0x7F800000#32
  let main_v5 : FVec F S256x512x1024 .f32 := broadcastInDim S256x512x1024 ![] bcast_S_S256x512x1024 main_cst_0
  let main_v6 : IVec S256x512x1024 1 := cmpf .olt main_v4 main_v5
  let main_c_1 : IVec S_ 1 := constantI S_ 1 1#1
  let main_v7 : IVec S_ 1 := (fun x v => Host.reduce IntOp.andi x v reducesTo_S256x512x1024_S_d0_1_2 h_S_) main_v6 main_c_1
  let main_v8 : IVec S_ 1 := andi main_v3 main_v7
  main_v8
-- ==== Kernel.lean ====
abbrev S256x256x1024 : Shape := ⟨3, ![256, 256, 1024]⟩
abbrev S256x512x1024 : Shape := ⟨3, ![256, 512, 1024]⟩
abbrev S256x512x256 : Shape := ⟨3, ![256, 512, 256]⟩
abbrev S1x256x1024 : Shape := ⟨3, ![1, 256, 1024]⟩
abbrev S1x512x1024 : Shape := ⟨3, ![1, 512, 1024]⟩
abbrev S1x512x256 : Shape := ⟨3, ![1, 512, 256]⟩
abbrev S256x1024 : Shape := ⟨2, ![256, 1024]⟩
abbrev S512x1024 : Shape := ⟨2, ![512, 1024]⟩
abbrev S256x512 : Shape := ⟨2, ![256, 512]⟩
abbrev S512 : Shape := ⟨1, ![512]⟩
abbrev S1x512 : Shape := ⟨2, ![1, 512]⟩
abbrev S256 : Shape := ⟨1, ![256]⟩
abbrev S256x1 : Shape := ⟨2, ![256, 1]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S256x256x1024, .f32⟩
  | .hbm, ⟨1, _⟩ => ⟨S256x512x1024, .f32⟩
  | .hbm, ⟨2, _⟩ => ⟨S256x256x1024, .f32⟩
  | .hbm, ⟨3, _⟩ => ⟨S256x512x256, .f32⟩
  | .local _ .vmem, ⟨0, _⟩ => ⟨S1x256x1024, .f32⟩
  | .local _ .vmem, ⟨1, _⟩ => ⟨S1x256x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x512x256, .f32⟩
  | .local _ .vmem, ⟨7, _⟩ => ⟨S1x512x256, .f32⟩
  | _, _ => ⟨S256x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  reduces_S256x512_S512 : S256x512.Reduces [0] S512
  shapeCasts_S512_S1x512 : S512.ShapeCasts S1x512
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  shapeCasts_S256x1024_S1x256x1024 : S256x1024.ShapeCasts S1x256x1024
  transposes_S256x512_p1_0_S512x256 : S256x512.Transposes [1, 0] S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S256x1024_S512x1024_S256x512_1_1_0_0_n_n_wf : DotDims.WF S256x1024 S512x1024 S256x512 [1] [1] [0] [0] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S256x256x1024.size a
  hwx0_0 : ∀ i : grid0.Coords, EltTy.bits .f32 = 32 ∨ (Rect.block (s := S256x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S256x512x1024.size a
  hwx0_1 : ∀ i : grid0.Coords, EltTy.bits .f32 = 32 ∨ (Rect.block (s := S256x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S256x256x1024.size a
  hwx0_2 : ∀ i : grid0.Coords, EltTy.bits .f32 = 32 ∨ (Rect.block (s := S256x256x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S256x512x256.size a
  hwx0_3 : ∀ i : grid0.Coords, EltTy.bits .f32 = 32 ∨ (Rect.block (s := S256x512x256) S1x512x256.size (cc0_transform_3 i) (hinb0_3 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x256x1024 : Shape := ⟨3, ![256, 256, 1024]⟩
abbrev S256x512x1024 : Shape := ⟨3, ![256, 512, 1024]⟩
abbrev S256x512x256 : Shape := ⟨3, ![256, 512, 256]⟩
abbrev S_ : Shape := ⟨0, ![]⟩
abbrev S256x512 : Shape := ⟨2, ![256, 512]⟩
abbrev S256x512x1 : Shape := ⟨3, ![256, 512, 1]⟩
abbrev S256x256x512 : Shape := ⟨3, ![256, 256, 512]⟩
abbrev S256x256 : Shape := ⟨2, ![256, 256]⟩
abbrev S256x256x1 : Shape := ⟨3, ![256, 256, 1]⟩

abbrev nBuf : Space → Nat
  | .hbm => 41
  | .vmem => 0
  | .smem => 0
  | _ => 0

abbrev bufTy : (tb : Table) → Fin (tcTables nBuf tb) → BufTy
  | .hbm, ⟨0, _⟩ => ⟨S256x256x1024, .f32⟩
  | .hbm, ⟨1, _⟩ => ⟨S256x512x1024, .f32⟩
  | .hbm, ⟨2, _⟩ => ⟨S256x512x256, .f32⟩
  | .hbm, ⟨3, _⟩ => ⟨S_, .f32⟩
  | .hbm, ⟨4, _⟩ => ⟨S_, .f32⟩
  | .hbm, ⟨5, _⟩ => ⟨S256x512x256, .f32⟩
  | .hbm, ⟨6, _⟩ => ⟨S256x512x256, .i1⟩
  | .hbm, ⟨7, _⟩ => ⟨S_, .f32⟩
  | .hbm, ⟨8, _⟩ => ⟨S256x512x256, .f32⟩
  | .hbm, ⟨9, _⟩ => ⟨S256x512x256, .f32⟩
  | .hbm, ⟨10, _⟩ => ⟨S256x512x256, .f32⟩
  | .hbm, ⟨11, _⟩ => ⟨S256x512x256, .f32⟩
  | .hbm, ⟨12, _⟩ => ⟨S_, .f32⟩
  | .hbm, ⟨13, _⟩ => ⟨S256x512, .f32⟩
  | .hbm, ⟨14, _⟩ => ⟨S256x512x1, .f32⟩
  | .hbm, ⟨15, _⟩ => ⟨S256x512x1, .f32⟩
  | .hbm, ⟨16, _⟩ => ⟨S_, .f32⟩
  | .hbm, ⟨17, _⟩ => ⟨S256x512x1, .f32⟩
  | .hbm, ⟨18, _⟩ => ⟨S256x512x1, .f32⟩
  | .hbm, ⟨19, _⟩ => ⟨S256x512x256, .f32⟩
  | .hbm, ⟨20, _⟩ => ⟨S256x512x256, .f32⟩
  | .hbm, ⟨21, _⟩ => ⟨S256x256x512, .f32⟩
  | .hbm, ⟨22, _⟩ => ⟨S_, .f32⟩
  | .hbm, ⟨23, _⟩ => ⟨S256x256x512, .f32⟩
  | .hbm, ⟨24, _⟩ => ⟨S256x256x512, .f32⟩
  | .hbm, ⟨25, _⟩ => ⟨S_, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256x1, .f32⟩
  | .hbm, ⟨31, _⟩ => ⟨S256x256x512, .f32⟩
  | .hbm, ⟨32, _⟩ => ⟨S256x256x512, .f32⟩
  | .hbm, ⟨33, _⟩ => ⟨S256x256x512, .f32⟩
  | .hbm, ⟨34, _⟩ => ⟨S_, .f32⟩
  | .hbm, ⟨35, _⟩ => ⟨S256x256, .f32⟩
  | .hbm, ⟨36, _⟩ => ⟨S256x256x1, .f32⟩
  | .hbm, ⟨37, _⟩ => ⟨S256x256x512, .f32⟩
  | .hbm, ⟨38, _⟩ => ⟨S256x256x512, .f32⟩
  | .hbm, ⟨39, _⟩ => ⟨S256x256x1024, .f32⟩
  | .hbm, ⟨40, _⟩ => ⟨S256x512x256, .f32⟩
  | _, _ => ⟨S256x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S_S256x512x256 : S_.BroadcastsInDim S256x512x256 (![] : Fin 0 → Fin S256x512x256.rank)
  reducesTo_S256x512x256_S256x512_d2 : S256x512x256.ReducesTo [2] S256x512
  h_S_ : 0 < S_.numel
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  bcast_S256x512x1_S256x512x256_0_1_2 : S256x512x1.BroadcastsInDim S256x512x256 (![0, 1, 2] : Fin 3 → Fin S256x512x256.rank)
  transposes_S256x512x256_S256x256x512_0_2_1 : S256x512x256.Transposes [0, 2, 1] S256x256x512
  bcast_S_S256x256x512 : S_.BroadcastsInDim S256x256x512 (![] : Fin 0 → Fin S256x256x512.rank)
  reducesTo_S256x256x512_S256x256_d2 : S256x256x512.ReducesTo [2] S256x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x512_0_1_2 : S256x256x1.BroadcastsInDim S256x256x512 (![0, 1, 2] : Fin 3 → Fin S256x256x512.rank)
  transposes_S256x256x512_S256x512x256_0_2_1 : S256x256x512.Transposes [0, 2, 1] S256x512x256
  dot_S256x512x1024_S256x256x1024_S256x512x256_2_2_1_1_0_0_wf : DotDims.WF S256x512x1024 S256x256x1024 S256x512x256 [2] [2] [1] [1] [0] [0]
  dot_S256x256x512_S256x512x1024_S256x256x1024_2_1_1_2_0_0_wf : DotDims.WF S256x256x512 S256x512x1024 S256x256x1024 [2] [1] [1] [2] [0] [0]

variable [Facts₀]

def dot_S256x512x1024_S256x256x1024_S256x512x256_2_2_1_1_0_0 : DotDims S256x512x1024 S256x256x1024 S256x512x256 where
  lhsContracting := [2]
  rhsContracting := [2]
  lhsNonContracting := [1]
  rhsNonContracting := [1]
  lhsBatch := [0]
  rhsBatch := [0]
  wf := dot_S256x512x1024_S256x256x1024_S256x512x256_2_2_1_1_0_0_wf
def dot_S256x256x512_S256x512x1024_S256x256x1024_2_1_1_2_0_0 : DotDims S256x256x512 S256x512x1024 S256x256x1024 where
  lhsContracting := [2]
  rhsContracting := [1]
  lhsNonContracting := [1]
  rhsNonContracting := [2]
  lhsBatch := [0]
  rhsBatch := [0]
  wf := dot_S256x256x512_S256x512x1024_S256x256x1024_2_1_1_2_0_0_wf

class Facts : Prop extends Facts₀ where

variable [Facts]
-- ==== Proof.Spec.lean ====
/-
  The specification both programs meet, stated once over plain extended reals.

  For one batch, with Q a (queries × features) matrix and C a (sources × features) matrix:
    score q s  = ∑ d, Q q d * C s d                      (the similarity of query q and source s)
    act q s    = score q s if it is positive, else slope * score q s      (leaky rectifier)
    nrm s      = sqrt (∑ q, act q s * act q s) + eps      (the length of column s over the queries)
    scaled q s = act q s / nrm s * temp
    rmax q     = the maximum of scaled q · over the sources (a fold of max from the bottom pattern)
    ex q s     = exp (scaled q s - rmax q)
    den q      = ∑ s, ex q s
    prob q s   = ex q s / den q                           (the softmax over the sources)
    wsum q d   = ∑ s, prob q s * C s d                    (the attention-weighted context)
  The two results of either program are, batch by batch, wsum (indexed batch, query, feature) and the transpose of
  prob (indexed batch, source, query). The literals stay as their bit patterns: the same words occur in both
  programs, so none is ever evaluated.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The rectifier's slope, the norm's guard and the softmax temperature, as the words both programs carry. -/
abbrev slope : EReal := Ideal.ofBits .f32 0x3DCCCCCD#32
abbrev eps : EReal := Ideal.ofBits .f32 0x322BCC77#32
abbrev temp : EReal := Ideal.ofBits .f32 0x41100000#32
/-- The word the row maximum starts from (the pattern of minus infinity). -/
abbrev bot : EReal := Ideal.ofBits .f32 0xFF800000#32

/-- The leaky rectifier: the identity above zero, a slope below. -/
def leaky (x : EReal) : EReal := if 0 < x then x else slope * x

/-- At zero both branches agree (slope * 0 = 0), so the strict and the weak comparison select the same value. -/
theorem leaky_of_le (x : EReal) : (if 0 ≤ x then x else slope * x) = leaky x := by
  unfold leaky
  by_cases h : 0 < x
  · rw [if_pos h, if_pos h.le]
  · rw [if_neg h]
    by_cases h' : 0 ≤ x
    · have hx : x = 0 := le_antisymm (not_lt.mp h) h'
      rw [if_pos h', hx, mul_zero]
    · rw [if_neg h']

variable {nq ns nd : ℕ}

def score (Q : Fin nq → Fin nd → EReal) (C : Fin ns → Fin nd → EReal) (q : Fin nq) (s : Fin ns) : EReal :=
  ∑ d : Fin nd, Q q d * C s d

def act (Q : Fin nq → Fin nd → EReal) (C : Fin ns → Fin nd → EReal) (q : Fin nq) (s : Fin ns) : EReal :=
  leaky (score Q C q s)

def nrm (Q : Fin nq → Fin nd → EReal) (C : Fin ns → Fin nd → EReal) (s : Fin ns) : EReal :=
  Ideal.sqrt (∑ q : Fin nq, act Q C q s * act Q C q s) + eps

def scaled (Q : Fin nq → Fin nd → EReal) (C : Fin ns → Fin nd → EReal) (q : Fin nq) (s : Fin ns) : EReal :=
  Ideal.div (act Q C q s) (nrm Q C s) * temp

def rmax (Q : Fin nq → Fin nd → EReal) (C : Fin ns → Fin nd → EReal) (q : Fin nq) : EReal :=
  (Finset.univ : Finset (Fin ns)).fold max bot (fun s => scaled Q C q s)

def ex (Q : Fin nq → Fin nd → EReal) (C : Fin ns → Fin nd → EReal) (q : Fin nq) (s : Fin ns) : EReal :=
  Ideal.exp (scaled Q C q s - rmax Q C q)

def den (Q : Fin nq → Fin nd → EReal) (C : Fin ns → Fin nd → EReal) (q : Fin nq) : EReal :=
  ∑ s : Fin ns, ex Q C q s

def prob (Q : Fin nq → Fin nd → EReal) (C : Fin ns → Fin nd → EReal) (q : Fin nq) (s : Fin ns) : EReal :=
  Ideal.div (ex Q C q s) (den Q C q)

def wsum (Q : Fin nq → Fin nd → EReal) (C : Fin ns → Fin nd → EReal) (q : Fin nq) (d : Fin nd) : EReal :=
  ∑ s : Fin ns, prob Q C q s * C s d

/-- Starting the maximum from the bottom word a second time changes nothing: the fold is already above it. -/
theorem max_bot_rmax (Q : Fin nq → Fin nd → EReal) (C : Fin ns → Fin nd → EReal) (q : Fin nq) :
    max bot (rmax Q C q) = rmax Q C q :=
  max_eq_right ((Finset.le_fold_max _).mpr (Or.inl le_rfl))

/-! ## The two result arrays as whole-array functions of the two argument arrays -/

abbrev SQ : Shape := ⟨3, ![256, 256, 1024]⟩
abbrev SC : Shape := ⟨3, ![256, 512, 1024]⟩
abbrev SA : Shape := ⟨3, ![256, 512, 256]⟩

/-- Batch b of the query array, as a matrix. -/
def qmat (X0 : SQ.Idx → EReal) (b : Fin 256) : Fin 256 → Fin 1024 → EReal := fun q d => X0 (ix3 b q d)
/-- Batch b of the context array, as a matrix. -/
def cmat (X1 : SC.Idx → EReal) (b : Fin 256) : Fin 512 → Fin 1024 → EReal := fun s d => X1 (ix3 b s d)

/-- The weighted context: at (b, q, d), the attention-weighted sum of batch b's context rows. -/
def GW (X0 : SQ.Idx → EReal) (X1 : SC.Idx → EReal) : SQ.Idx → EReal :=
  fun i => wsum (qmat X0 (i 0)) (cmat X1 (i 0)) (i 1) (i 2)

/-- The transposed attention: at (b, s, q), the softmax weight of source s for query q in batch b. -/
def GA (X0 : SQ.Idx → EReal) (X1 : SC.Idx → EReal) : SA.Idx → EReal :=
  fun i => prob (qmat X0 (i 0)) (cmat X1 (i 0)) (i 2) (i 1)

theorem GW_ix3 (X0 : SQ.Idx → EReal) (X1 : SC.Idx → EReal) (b : Fin 256) (q : Fin 256) (d : Fin 1024) :
    GW X0 X1 (ix3 b q d) = wsum (qmat X0 b) (cmat X1 b) q d := rfl

theorem GA_ix3 (X0 : SQ.Idx → EReal) (X1 : SC.Idx → EReal) (b : Fin 256) (s : Fin 512) (q : Fin 256) :
    GA X0 X1 (ix3 b s q) = prob (qmat X0 b) (cmat X1 b) q s := rfl

end Cert.Attn

end
-- ==== Proof.KPay.lean ====
/-
  The kernel body's arithmetic at one grid point, read index by index.

  The body loads one batch's query block P0 (1 × 256 × 1024) and context block P1 (1 × 512 × 1024), reads them
  as matrices Q (256 × 1024) and C (512 × 1024), and computes: the similarity Q · Cᵀ (256 × 512), its leaky
  rectifier, the guarded length of each column over the 256 queries, the normalised and temperature-scaled
  logits, each row's maximum over the 512 sources, the exponentials, each row's sum, the softmax, and the
  product softmax · C (256 × 1024). Each stage below is that operation of the stages before it; each lemma
  says what the stage holds at a coordinate, in the specification's words.
-/
import proofs.«120046_j2662879723582_1_alg».proof.Proof.Gen.KernelIdeal.Skeleton
import proofs.«120046_j2662879723582_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Facts₀ Idealize.ShloMosaic Idealize.ShloMosaic.ValueIdx Cert.Attn

variable (P0 : Vec Ideal S1x256x1024 .f32) (P1 : Vec Ideal S1x512x1024 .f32)

/-- The loaded blocks as matrices. -/
abbrev Qm : Fin 256 → Fin 1024 → EReal := fun q d => P0 (ix3 (0 : Fin 1) q d)
abbrev Cm : Fin 512 → Fin 1024 → EReal := fun s d => P1 (ix3 (0 : Fin 1) s d)

/-! ## The stages, as the body computes them -/

def qv : FVec Ideal S256x1024 .bf16 :=
  truncf .bf16 (shapeCast S256x1024 P0 shapeCasts_S1x256x1024_S256x1024) bitsLt_bf16_f32

def simv : FVec Ideal S256x512 .f32 :=
  matmul dot_S256x1024_S512x1024_S256x512_1_1_0_0_n_n none (qv P0) (Gen.k0_pay2 P1) (constant S256x512 .f32 0x00000000#32)

def actv : FVec Ideal S256x512 .f32 :=
  select (cmpf .ogt (simv P0 P1) (broadcast S256x512 (Scalar.ofBits .f32 0x00000000#32))) (simv P0 P1)
    (mulf (broadcast S256x512 (Scalar.ofBits .f32 0x3DCCCCCD#32)) (simv P0 P1))

def normv : FVec Ideal S1x512 .f32 :=
  addf (sqrt (shapeCast S1x512
      (multiReduction .add [0] S512 (mulf (actv P0 P1) (actv P0 P1)) 0x00000000#32 reduces_S256x512_S512 (.inl rfl) rfl)
      shapeCasts_S512_S1x512))
    (broadcast S1x512 (Scalar.ofBits .f32 0x322BCC77#32))

def logitv : FVec Ideal S256x512 .f32 :=
  mulf (divf (actv P0 P1) (broadcastTo S256x512 (normv P0 P1) broadcasts_S1x512_S256x512))
    (broadcast S256x512 (Scalar.ofBits .f32 0x41100000#32))

def maxv : FVec Ideal S256 .f32 :=
  multiReduction .maximumf [1] S256 (logitv P0 P1) 0xFF800000#32 reduces_S256x512_S256 (.inl rfl) rfl

def expv : FVec Ideal S256x512 .f32 :=
  exp (subf (logitv P0 P1)
    (broadcastTo S256x512 (shapeCast S256x1 (maxv P0 P1) shapeCasts_S256_S256x1) broadcasts_S256x1_S256x512))

def sumv : FVec Ideal S256 .f32 :=
  multiReduction .add [1] S256 (expv P0 P1) 0x00000000#32 reduces_S256x512_S256 (.inl rfl) rfl

def softv : FVec Ideal S256x512 .f32 :=
  divf (expv P0 P1)
    (broadcastTo S256x512 (shapeCast S256x1 (sumv P0 P1) shapeCasts_S256_S256x1) broadcasts_S256x1_S256x512)

/-- The body's softmax value is the last stage. -/
theorem pay3_eq : Gen.k0_pay3 P0 P1 = softv P0 P1 := rfl

/-- The stored weighted block is the product of the softmax with the context matrix, under a leading unit axis. -/
theorem pay4_eq : Gen.k0_pay4 P0 P1
    = shapeCast S1x256x1024
        (matmul dot_S256x512_S512x1024_S256x1024_1_0_0_1_n_n none
          (truncf .bf16 (softv P0 P1) bitsLt_bf16_f32) (Gen.k0_pay2 P1) (constant S256x1024 .f32 0x00000000#32))
        shapeCasts_S256x1024_S1x256x1024 := rfl

/-! ## Small facts the stages are read with -/

section Tools
variable {α : Type}

/-- A length-a vector cast to a column (a × 1) reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column (a × 1) broadcast along its unit axis to a × b reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Tools

/-- The comparison word is one exactly when the compared proposition holds. -/
theorem ofBool_decide_eq_one (p : Prop) [Decidable p] : BitVec.ofBool (decide p) = 1#1 ↔ p := by
  by_cases h : p <;> simp [h]

/-- The body's rectifier on one element: select by "greater than zero" between x and slope · x. -/
theorem leaky_select (x : EReal) :
    Scalar.select (FloatOps.cmpf (F := Ideal) (φ := .f32) .ogt x (Scalar.ofBits .f32 0x00000000#32)) x
      (FloatOps.mulf (Scalar.ofBits (F := Ideal) .f32 0x3DCCCCCD#32) x) = leaky x := by
  have h0 : (Scalar.ofBits (F := Ideal) .f32 0x00000000#32 : EReal) = 0 := Ideal.ofBits_zero_f32
  unfold leaky Scalar.select
  rw [Ideal.cmpf_def, h0]
  show (if BitVec.ofBool (decide ((0 : EReal) < x)) = 1#1 then x else slope * x) = _
  by_cases h : (0 : EReal) < x
  · rw [if_pos ((ofBool_decide_eq_one _).mpr h), if_pos h]
  · rw [if_neg (fun hh => h ((ofBool_decide_eq_one _).mp hh)), if_neg h]

/-- A sum over the rows (axis 0) of a 256 × 512 vector, at column s. -/
theorem colsum_at (v : FVec Ideal S256x512 .f32) (s : Fin 512) :
    multiReduction .add [0] S512 v 0x00000000#32 reduces_S256x512_S512 (.inl rfl) rfl (ix1 s) = ∑ q : Fin 256, v (ix2 q s) := by
  refine (Ideal.multiReduction_add_single v _ reduces_S256x512_S512 _ _ (ix1 s)).trans ?_
  refine Finset.sum_congr rfl fun q _ => congrArg v ?_
  funext a
  match a with
  | ⟨0, _⟩ => rfl
  | ⟨1, _⟩ => rfl

/-- A sum over the columns (axis 1) of a 256 × 512 vector, at row q. -/
theorem rowsum_at (v : FVec Ideal S256x512 .f32) (q : Fin 256) :
    multiReduction .add [1] S256 v 0x00000000#32 reduces_S256x512_S256 (.inl rfl) rfl (ix1 q) = ∑ s : Fin 512, v (ix2 q s) := by
  refine (Ideal.multiReduction_add_single v _ reduces_S256x512_S256 _ _ (ix1 q)).trans ?_
  refine Finset.sum_congr rfl fun s _ => congrArg v ?_
  funext a
  match a with
  | ⟨0, _⟩ => rfl
  | ⟨1, _⟩ => rfl

/-- The maximum over the columns (axis 1) of a 256 × 512 vector, at row q: a fold of max from the bottom word. -/
theorem rowmax_at (v : FVec Ideal S256x512 .f32) (q : Fin 256) :
    multiReduction .maximumf [1] S256 v 0xFF800000#32 reduces_S256x512_S256 (.inl rfl) rfl (ix1 q)
      = (Finset.univ : Finset (Fin 512)).fold max bot (fun s => v (ix2 q s)) := by
  refine (Ideal.multiReduction_maximumf_single v _ reduces_S256x512_S256 _ _ (ix1 q)).trans ?_
  refine congrArg (fun f : Fin 512 → EReal => (Finset.univ : Finset (Fin 512)).fold max bot f) (funext fun s => congrArg v ?_)
  funext a
  match a with
  | ⟨0, _⟩ => rfl
  | ⟨1, _⟩ => rfl

/-! ## Each stage at a coordinate -/

theorem qv_at (q : Fin 256) (d : Fin 1024) : qv P0 (ix2 q d) = Qm P0 q d :=
  shapeCast_1ab_ab_apply P0 shapeCasts_S1x256x1024_S256x1024 q d

theorem cv_at (s : Fin 512) (d : Fin 1024) : Gen.k0_pay2 P1 (ix2 s d) = Cm P1 s d :=
  shapeCast_1ab_ab_apply P1 shapeCasts_S1x512x1024_S512x1024 s d

/-- The similarity: entry (q, s) is the inner product of query row q and context row s (both operands are
    contracted on their feature axis). -/
theorem simv_at (q : Fin 256) (s : Fin 512) : simv P0 P1 (ix2 q s) = score (Qm P0) (Cm P1) q s := by
  unfold simv score
  refine (Ideal.matmul_constant_zero_apply dot_S256x1024_S512x1024_S256x512_1_1_0_0_n_n none (qv P0) (Gen.k0_pay2 P1) (ix2 q s)).trans ?_
  refine (Equiv.sum_comp (contrEquiv1 dot_S256x1024_S512x1024_S256x512_1_1_0_0_n_n 1024 rfl rfl).symm _).symm.trans ?_
  refine Finset.sum_congr rfl fun d _ => ?_
  have hl : dot_S256x1024_S512x1024_S256x512_1_1_0_0_n_n.lhsIdx (ix2 q s)
      ((contrEquiv1 dot_S256x1024_S512x1024_S256x512_1_1_0_0_n_n 1024 rfl rfl).symm d) = ix2 q d := by
    funext a
    match a with
    | ⟨0, _⟩ => rfl
    | ⟨1, _⟩ => rfl
  have hr : dot_S256x1024_S512x1024_S256x512_1_1_0_0_n_n.rhsIdx (ix2 q s)
      ((contrEquiv1 dot_S256x1024_S512x1024_S256x512_1_1_0_0_n_n 1024 rfl rfl).symm d) = ix2 s d := by
    funext a
    match a with
    | ⟨0, _⟩ => rfl
    | ⟨1, _⟩ => rfl
  rw [hl, hr, qv_at, cv_at]

theorem actv_at (q : Fin 256) (s : Fin 512) : actv P0 P1 (ix2 q s) = act (Qm P0) (Cm P1) q s := by
  unfold act
  rw [← simv_at]
  exact leaky_select _

theorem normv_at (u : Fin 1) (s : Fin 512) : normv P0 P1 (ix2 u s) = nrm (Qm P0) (Cm P1) s := by
  unfold normv nrm
  show Ideal.sqrt (shapeCast S1x512 _ shapeCasts_S512_S1x512 (ix2 u s)) + eps = _
  rw [shapeCast_a_1a_apply, colsum_at]
  refine congrArg (fun z => Ideal.sqrt z + eps) (Finset.sum_congr rfl fun q _ => ?_)
  show actv P0 P1 (ix2 q s) * actv P0 P1 (ix2 q s) = _
  rw [actv_at]

theorem logitv_at (q : Fin 256) (s : Fin 512) : logitv P0 P1 (ix2 q s) = scaled (Qm P0) (Cm P1) q s := by
  unfold logitv scaled
  show Ideal.div (actv P0 P1 (ix2 q s)) (broadcastTo S256x512 (normv P0 P1) broadcasts_S1x512_S256x512 (ix2 q s)) * temp = _
  rw [broadcastTo_1b_ab_apply, actv_at, normv_at]

theorem maxv_at (q : Fin 256) : maxv P0 P1 (ix1 q) = rmax (Qm P0) (Cm P1) q := by
  unfold maxv rmax
  rw [rowmax_at]
  exact congrArg (fun f : Fin 512 → EReal => (Finset.univ : Finset (Fin 512)).fold max bot f) (funext fun s => logitv_at P0 P1 q s)

theorem expv_at (q : Fin 256) (s : Fin 512) : expv P0 P1 (ix2 q s) = ex (Qm P0) (Cm P1) q s := by
  unfold expv ex
  show Ideal.exp (logitv P0 P1 (ix2 q s)
    - broadcastTo S256x512 (shapeCast S256x1 (maxv P0 P1) shapeCasts_S256_S256x1) broadcasts_S256x1_S256x512 (ix2 q s)) = _
  rw [broadcastTo_a1_ab_apply, shapeCast_a_a1_apply, logitv_at, maxv_at]

theorem sumv_at (q : Fin 256) : sumv P0 P1 (ix1 q) = den (Qm P0) (Cm P1) q := by
  unfold sumv den
  rw [rowsum_at]
  exact Finset.sum_congr rfl fun s _ => expv_at P0 P1 q s

theorem softv_at (q : Fin 256) (s : Fin 512) : softv P0 P1 (ix2 q s) = prob (Qm P0) (Cm P1) q s := by
  unfold softv prob
  show Ideal.div (expv P0 P1 (ix2 q s))
    (broadcastTo S256x512 (shapeCast S256x1 (sumv P0 P1) shapeCasts_S256_S256x1) broadcasts_S256x1_S256x512 (ix2 q s)) = _
  rw [broadcastTo_a1_ab_apply, shapeCast_a_a1_apply, expv_at, sumv_at]

/-- THE SOFTMAX BLOCK: the body's value at (q, s) is the specification's softmax weight of source s for query q. -/
theorem pay3_at (q : Fin 256) (s : Fin 512) : Gen.k0_pay3 P0 P1 (ix2 q s) = prob (Qm P0) (Cm P1) q s := by
  rw [pay3_eq]; exact softv_at P0 P1 q s

/-- THE WEIGHTED BLOCK: the stored value at (0, q, d) is the softmax-weighted sum of the context rows' feature d
    (the softmax is contracted on its source axis against the context's row axis). -/
theorem pay4_at (u : Fin 1) (q : Fin 256) (d : Fin 1024) : Gen.k0_pay4 P0 P1 (ix3 u q d) = wsum (Qm P0) (Cm P1) q d := by
  rw [pay4_eq, shapeCast_ab_1ab_apply]
  unfold wsum
  refine (Ideal.matmul_constant_zero_apply dot_S256x512_S512x1024_S256x1024_1_0_0_1_n_n none
    (truncf .bf16 (softv P0 P1) bitsLt_bf16_f32) (Gen.k0_pay2 P1) (ix2 q d)).trans ?_
  refine (Equiv.sum_comp (contrEquiv1 dot_S256x512_S512x1024_S256x1024_1_0_0_1_n_n 512 rfl rfl).symm _).symm.trans ?_
  refine Finset.sum_congr rfl fun s _ => ?_
  have hl : dot_S256x512_S512x1024_S256x1024_1_0_0_1_n_n.lhsIdx (ix2 q d)
      ((contrEquiv1 dot_S256x512_S512x1024_S256x1024_1_0_0_1_n_n 512 rfl rfl).symm s) = ix2 q s := by
    funext a
    match a with
    | ⟨0, _⟩ => rfl
    | ⟨1, _⟩ => rfl
  have hr : dot_S256x512_S512x1024_S256x1024_1_0_0_1_n_n.rhsIdx (ix2 q d)
      ((contrEquiv1 dot_S256x512_S512x1024_S256x1024_1_0_0_1_n_n 512 rfl rfl).symm s) = ix2 s d := by
    funext a
    match a with
    | ⟨0, _⟩ => rfl
    | ⟨1, _⟩ => rfl
  rw [hl, hr, cv_at]
  show softv P0 P1 (ix2 q s) * _ = _
  rw [softv_at]

end Cert.KernelIdeal.Pay

end
-- ==== Proof.KBlocks.lean ====
/-
  From the 256 written blocks to the two whole result arrays of the idealized kernel.

  The grid has one point per batch. At point t every window's block is batch t's whole matrix: block index (t, 0, 0),
  so entry (0, j, k) of a block sits at (t, j, k) of its array. Given what the body leaves at an entry of each output
  block as a function of the two loaded blocks (the two hypotheses below: the softmax block, and the weighted block),
  the block point t writes back is block t of ONE whole-array function of the two argument arrays — the weighted
  context for the first result, the transposed attention for the second. Distinct points write distinct batches and
  the 256 blocks cover each array, so after the run each result array IS that function, and the arguments are as
  launched.
-/
import proofs.«120046_j2662879723582_1_alg».proof.Proof.Gen.KernelIdeal.Value
import proofs.«120046_j2662879723582_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The softmax block: the body's value %30 at (q, s) is the specification's prob of the two loaded blocks read as
    matrices. -/
def PaySoft : Prop := ∀ (P0 : Vec Ideal S1x256x1024 .f32) (P1 : Vec Ideal S1x512x1024 .f32) (q : Fin 256) (s : Fin 512),
    k0_pay3 P0 P1 (ix2 q s) = Cert.Attn.prob (fun q d => P0 (ix3 (0 : Fin 1) q d)) (fun s d => P1 (ix3 (0 : Fin 1) s d)) q s

/-- The stored weighted block %35 at (0, q, d). -/
def PayWeighted : Prop := ∀ (P0 : Vec Ideal S1x256x1024 .f32) (P1 : Vec Ideal S1x512x1024 .f32) (q : Fin 256) (d : Fin 1024),
    k0_pay4 P0 P1 (ix3 (0 : Fin 1) q d) = Cert.Attn.wsum (fun q d => P0 (ix3 (0 : Fin 1) q d)) (fun s d => P1 (ix3 (0 : Fin 1) s d)) q d

variable (m : (ℓ : Loc nD τ sig) → Buf (Elt Ideal) ℓ) (ρ : Dev nD → PrngReg)

/-! ## The grid: one point per batch -/

/-- The zero offsets of a whole-block access, however they are spelt. -/
theorem zeroOffsets : (![0, 0, 0] : Fin 3 → Nat) = fun _ => 0 := funext fun a => by fin_cases a <;> rfl

/-- Every window's block index at point `t` is (t, 0, 0): the point is the batch, and a block is that batch's whole
    matrix. Decided once over the 256 points. -/
theorem blockIndex : ∀ t : Fin cfg0.N,
    (win0_0.index t ⟨0, by decide⟩ = t.val ∧ win0_0.index t ⟨1, by decide⟩ = 0 ∧ win0_0.index t ⟨2, by decide⟩ = 0)
    ∧ (win0_1.index t ⟨0, by decide⟩ = t.val ∧ win0_1.index t ⟨1, by decide⟩ = 0 ∧ win0_1.index t ⟨2, by decide⟩ = 0)
    ∧ (win0_2.index t ⟨0, by decide⟩ = t.val ∧ win0_2.index t ⟨1, by decide⟩ = 0 ∧ win0_2.index t ⟨2, by decide⟩ = 0)
    ∧ (win0_3.index t ⟨0, by decide⟩ = t.val ∧ win0_3.index t ⟨1, by decide⟩ = 0 ∧ win0_3.index t ⟨2, by decide⟩ = 0) :=
  (by decide +kernel : ∀ t : Fin grid0.N, _)

/-- The batch a grid point works on. -/
def batch (t : Fin cfg0.N) : Fin 256 := ⟨t.val, t.isLt.trans_eq N_0⟩

/-- The grid point that works on a batch. -/
def point (b : Fin 256) : Fin cfg0.N := ⟨b.val, b.isLt.trans_eq N_0.symm⟩

/-! ## Where a block's entries sit in its array

A block's coordinate in the array is, on each axis, the block index times the block's size plus the coordinate inside the
block; with block index (t, 0, 0) and a unit leading axis, entry (0, j, k) of block `t` is entry (t, j, k) of the array. -/

/-- Entry (0, q, d) of the query block at point `t` sits at (t, q, d) of the query array. -/
theorem queryBlock_emb (t : Fin cfg0.N) (q : Fin 256) (d : Fin 1024) :
    ((cfg0.win 0).blk t).view.emb (ix3 (0 : Fin 1) q d) = (ix3 (batch t) q d : S256x256x1024.Idx) := by
  obtain ⟨⟨e0, e1, e2⟩, -⟩ := blockIndex t
  funext a; apply Fin.ext
  match a with
  | ⟨0, _⟩ => show win0_0.index t ⟨0, by decide⟩ * 1 + 1 * 0 = t.val; omega
  | ⟨1, _⟩ => show win0_0.index t ⟨1, by decide⟩ * 256 + 1 * q.val = q.val; omega
  | ⟨2, _⟩ => show win0_0.index t ⟨2, by decide⟩ * 1024 + 1 * d.val = d.val; omega

/-- Entry (0, s, d) of the context block at point `t` sits at (t, s, d) of the context array. -/
theorem contextBlock_emb (t : Fin cfg0.N) (s : Fin 512) (d : Fin 1024) :
    ((cfg0.win 1).blk t).view.emb (ix3 (0 : Fin 1) s d) = (ix3 (batch t) s d : S256x512x1024.Idx) := by
  obtain ⟨-, ⟨e0, e1, e2⟩, -⟩ := blockIndex t
  funext a; apply Fin.ext
  match a with
  | ⟨0, _⟩ => show win0_1.index t ⟨0, by decide⟩ * 1 + 1 * 0 = t.val; omega
  | ⟨1, _⟩ => show win0_1.index t ⟨1, by decide⟩ * 512 + 1 * s.val = s.val; omega
  | ⟨2, _⟩ => show win0_1.index t ⟨2, by decide⟩ * 1024 + 1 * d.val = d.val; omega

/-- Entry (0, q, d) of the weighted-context block at point `t` sits at (t, q, d) of the first result array. -/
theorem weightedBlock_emb (t : Fin cfg0.N) (q : Fin 256) (d : Fin 1024) :
    ((cfg0.win 2).blk t).view.emb (ix3 (0 : Fin 1) q d) = (ix3 (batch t) q d : S256x256x1024.Idx) := by
  obtain ⟨-, -, ⟨e0, e1, e2⟩, -⟩ := blockIndex t
  funext a; apply Fin.ext
  match a with
  | ⟨0, _⟩ => show win0_2.index t ⟨0, by decide⟩ * 1 + 1 * 0 = t.val; omega
  | ⟨1, _⟩ => show win0_2.index t ⟨1, by decide⟩ * 256 + 1 * q.val = q.val; omega
  | ⟨2, _⟩ => show win0_2.index t ⟨2, by decide⟩ * 1024 + 1 * d.val = d.val; omega

/-- Entry (0, s, q) of the attention block at point `t` sits at (t, s, q) of the second result array. -/
theorem attentionBlock_emb (t : Fin cfg0.N) (s : Fin 512) (q : Fin 256) :
    ((cfg0.win 3).blk t).view.emb (ix3 (0 : Fin 1) s q) = (ix3 (batch t) s q : S256x512x256.Idx) := by
  obtain ⟨-, -, -, e0, e1, e2⟩ := blockIndex t
  funext a; apply Fin.ext
  match a with
  | ⟨0, _⟩ => show win0_3.index t ⟨0, by decide⟩ * 1 + 1 * 0 = t.val; omega
  | ⟨1, _⟩ => show win0_3.index t ⟨1, by decide⟩ * 512 + 1 * s.val = s.val; omega
  | ⟨2, _⟩ => show win0_3.index t ⟨2, by decide⟩ * 256 + 1 * q.val = q.val; omega

/-- The query block at point `t`, read as a matrix, is batch `t` of the query array. -/
theorem queryBlock_eq (c : Dev nD) (t : Fin cfg0.N) :
    (fun (q : Fin 256) (d : Fin 1024) => (iblk m c 0 t : Vec Ideal S1x256x1024 .f32) (ix3 (0 : Fin 1) q d))
      = Cert.Attn.qmat (V m c main_arg0) (batch t) := by
  funext q d
  show V m c main_arg0 (((cfg0.win 0).blk t).view.emb (ix3 (0 : Fin 1) q d)) = V m c main_arg0 (ix3 (batch t) q d)
  rw [queryBlock_emb]

/-- The context block at point `t`, read as a matrix, is batch `t` of the context array. -/
theorem contextBlock_eq (c : Dev nD) (t : Fin cfg0.N) :
    (fun (s : Fin 512) (d : Fin 1024) => (iblk m c 1 t : Vec Ideal S1x512x1024 .f32) (ix3 (0 : Fin 1) s d))
      = Cert.Attn.cmat (V m c main_arg1) (batch t) := by
  funext s d
  show V m c main_arg1 (((cfg0.win 1).blk t).view.emb (ix3 (0 : Fin 1) s d)) = V m c main_arg1 (ix3 (batch t) s d)
  rw [contextBlock_emb]

/-! ## What the body leaves at an entry, over arbitrary loaded blocks -/

/-- The weighted block at (0, q, d) is the specification's weighted sum of the two loaded blocks read as matrices. -/
theorem weightedAt (hw : PayWeighted) (P0 : Vec Ideal S1x256x1024 .f32) (P1 : Vec Ideal S1x512x1024 .f32)
    (q : Fin 256) (d : Fin 1024) :
    k0_pay4 P0 P1 (ix3 (0 : Fin 1) q d)
      = Cert.Attn.wsum (fun q d => P0 (ix3 (0 : Fin 1) q d)) (fun s d => P1 (ix3 (0 : Fin 1) s d)) q d :=
  hw P0 P1 q d

/-- The attention block re-lays the softmax block transposed under a unit axis: its entry (0, s, q) is the softmax at
    (q, s). -/
theorem attentionAt (hs : PaySoft) (P0 : Vec Ideal S1x256x1024 .f32) (P1 : Vec Ideal S1x512x1024 .f32)
    (s : Fin 512) (q : Fin 256) :
    View.canon ([⟨r0_2, k0_pay1 (k0_pay5 P0 P1)⟩] : List (View.Piece (Elt Ideal) S1x512x256 .f32)) (ix3 (0 : Fin 1) s q)
      = Cert.Attn.prob (fun q d => P0 (ix3 (0 : Fin 1) q d)) (fun s d => P1 (ix3 (0 : Fin 1) s d)) q s := by
  rw [Value.canon3_eq P0 P1 (ix3 (0 : Fin 1) s q)]
  show k0_pay3 P0 P1 (Value.ix3_0 (ix3 (0 : Fin 1) s q)) = _
  rw [show Value.ix3_0 (ix3 (0 : Fin 1) s q) = ix2 q s from
    funext fun a => by match a with | ⟨0, _⟩ => rfl | ⟨1, _⟩ => rfl]
  exact hs P0 P1 q s

/-! ## First result: the weighted context -/

/-- WHAT POINT `t` WRITES BACK to the first result is block `t` of the weighted-context array of the two argument
    arrays. -/
theorem flushedW_eq (hw : PayWeighted) (c : Dev nD) (t : Fin cfg0.N) :
    (dats m 0 c).flushed 2 t
      = ((cfg0.win 2).blk t).view.read (Elt Ideal) (Cert.Attn.GW (V m c main_arg0) (V m c main_arg1)) := by
  rw [Value.flushed2]
  unfold Gen.out0_2
  rw [View.canon_unit_zero zeroOffsets]
  simp only [View.ld_unit_zero (S := S1x256x1024) zeroOffsets, View.ld_unit_zero (S := S1x512x1024) zeroOffsets]
  refine funext fun (y : S1x256x1024.Idx) => ?_
  obtain ⟨y0, q, d, rfl⟩ : ∃ (y0 : Fin 1) (q : Fin 256) (d : Fin 1024), y = ix3 y0 q d := ⟨y 0, y 1, y 2, eq_ix3 y⟩
  obtain rfl : y0 = 0 := Subsingleton.elim _ _
  show k0_pay4 (iblk m c 0 t) (iblk m c 1 t) (ix3 (0 : Fin 1) q d)
    = Cert.Attn.GW (V m c main_arg0) (V m c main_arg1) (((cfg0.win 2).blk t).view.emb (ix3 (0 : Fin 1) q d))
  refine (weightedAt hw (iblk m c 0 t) (iblk m c 1 t) q d).trans ?_
  rw [weightedBlock_emb, Cert.Attn.GW_ix3, queryBlock_eq m c t, contextBlock_eq m c t]

/-- An index of the first result array is in point `t`'s block iff each coordinate is in the block's range on its axis. -/
theorem mem_blkW (t : Fin cfg0.N) (i : S256x256x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v0_0).slice (win0_2.rect t)).set ↔ _
  rw [View.set_slice_whole, Rect.mem_set_unit]
  exact Iff.rfl

/-- Every index (b, q, d) of the first result array is in the block of the point that works on batch b. -/
theorem coverW (i : S256x256x1024.Idx) :
    ∃ t : Fin cfg0.N, (cfg0.win 2).flush t = true ∧ i ∈ ((cfg0.win 2).blk t).view.set := by
  have hi0 : (i 0).val < 256 := (i 0).isLt
  have hi1 : (i 1).val < 256 := (i 1).isLt
  have hi2 : (i 2).val < 1024 := (i 2).isLt
  refine ⟨point ⟨(i 0).val, hi0⟩, flush0_2 _, ?_⟩
  rw [mem_blkW]
  obtain ⟨-, -, ⟨e0, e1, e2⟩, -⟩ := blockIndex (point ⟨(i 0).val, hi0⟩)
  have ept : (point ⟨(i 0).val, hi0⟩).val = (i 0).val := rfl
  intro a
  match a with
  | ⟨0, _⟩ =>
    show win0_2.index (point ⟨(i 0).val, hi0⟩) ⟨0, by decide⟩ * 1 ≤ (i 0).val
      ∧ (i 0).val < win0_2.index (point ⟨(i 0).val, hi0⟩) ⟨0, by decide⟩ * 1 + 1
    omega
  | ⟨1, _⟩ =>
    show win0_2.index (point ⟨(i 0).val, hi0⟩) ⟨1, by decide⟩ * 256 ≤ (i 1).val
      ∧ (i 1).val < win0_2.index (point ⟨(i 0).val, hi0⟩) ⟨1, by decide⟩ * 256 + 256
    omega
  | ⟨2, _⟩ =>
    show win0_2.index (point ⟨(i 0).val, hi0⟩) ⟨2, by decide⟩ * 1024 ≤ (i 2).val
      ∧ (i 2).val < win0_2.index (point ⟨(i 0).val, hi0⟩) ⟨2, by decide⟩ * 1024 + 1024
    omega

/-- THE FIRST RESULT ARRAY after the run is the weighted-context array of the two argument arrays. -/
theorem finalW (hw : PayWeighted) (c : Dev nD) :
    (dats m 0 c).arrAt 2 cfg0.N = Cert.Attn.GW (V m c main_arg0) (V m c main_arg1) :=
  (dats m 0 c).arrAt_eq_of_cover 2 (Cert.Attn.GW (V m c main_arg0) (V m c main_arg1))
    (fun t _ => flushedW_eq m hw c t) coverW

/-! ## Second result: the transposed attention -/

/-- WHAT POINT `t` WRITES BACK to the second result is block `t` of the transposed-attention array of the two argument
    arrays. -/
theorem flushedA_eq (hs : PaySoft) (c : Dev nD) (t : Fin cfg0.N) :
    (dats m 0 c).flushed 3 t
      = ((cfg0.win 3).blk t).view.read (Elt Ideal) (Cert.Attn.GA (V m c main_arg0) (V m c main_arg1)) := by
  rw [Value.flushed3]
  unfold Gen.out0_3
  simp only [View.ld_unit_zero (S := S1x256x1024) zeroOffsets, View.ld_unit_zero (S := S1x512x1024) zeroOffsets]
  refine funext fun (y : S1x512x256.Idx) => ?_
  obtain ⟨y0, s, q, rfl⟩ : ∃ (y0 : Fin 1) (s : Fin 512) (q : Fin 256), y = ix3 y0 s q := ⟨y 0, y 1, y 2, eq_ix3 y⟩
  obtain rfl : y0 = 0 := Subsingleton.elim _ _
  show View.canon ([⟨r0_2, k0_pay1 (k0_pay5 (iblk m c 0 t) (iblk m c 1 t))⟩] : List (View.Piece (Elt Ideal) S1x512x256 .f32))
      (ix3 (0 : Fin 1) s q)
    = Cert.Attn.GA (V m c main_arg0) (V m c main_arg1) (((cfg0.win 3).blk t).view.emb (ix3 (0 : Fin 1) s q))
  refine (attentionAt hs (iblk m c 0 t) (iblk m c 1 t) s q).trans ?_
  rw [attentionBlock_emb, Cert.Attn.GA_ix3, queryBlock_eq m c t, contextBlock_eq m c t]

/-- An index of the second result array is in point `t`'s block iff each coordinate is in the block's range on its axis. -/
theorem mem_blkA (t : Fin cfg0.N) (i : S256x512x256.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v0_1).slice (win0_3.rect t)).set ↔ _
  rw [View.set_slice_whole, Rect.mem_set_unit]
  exact Iff.rfl

/-- Every index (b, s, q) of the second result array is in the block of the point that works on batch b. -/
theorem coverA (i : S256x512x256.Idx) :
    ∃ t : Fin cfg0.N, (cfg0.win 3).flush t = true ∧ i ∈ ((cfg0.win 3).blk t).view.set := by
  have hi0 : (i 0).val < 256 := (i 0).isLt
  have hi1 : (i 1).val < 512 := (i 1).isLt
  have hi2 : (i 2).val < 256 := (i 2).isLt
  refine ⟨point ⟨(i 0).val, hi0⟩, flush0_3 _, ?_⟩
  rw [mem_blkA]
  obtain ⟨-, -, -, e0, e1, e2⟩ := blockIndex (point ⟨(i 0).val, hi0⟩)
  have ept : (point ⟨(i 0).val, hi0⟩).val = (i 0).val := rfl
  intro a
  match a with
  | ⟨0, _⟩ =>
    show win0_3.index (point ⟨(i 0).val, hi0⟩) ⟨0, by decide⟩ * 1 ≤ (i 0).val
      ∧ (i 0).val < win0_3.index (point ⟨(i 0).val, hi0⟩) ⟨0, by decide⟩ * 1 + 1
    omega
  | ⟨1, _⟩ =>
    show win0_3.index (point ⟨(i 0).val, hi0⟩) ⟨1, by decide⟩ * 512 ≤ (i 1).val
      ∧ (i 1).val < win0_3.index (point ⟨(i 0).val, hi0⟩) ⟨1, by decide⟩ * 512 + 512
    omega
  | ⟨2, _⟩ =>
    show win0_3.index (point ⟨(i 0).val, hi0⟩) ⟨2, by decide⟩ * 256 ≤ (i 2).val
      ∧ (i 2).val < win0_3.index (point ⟨(i 0).val, hi0⟩) ⟨2, by decide⟩ * 256 + 256
    omega

/-- THE SECOND RESULT ARRAY after the run is the transposed-attention array of the two argument arrays. -/
theorem finalA (hs : PaySoft) (c : Dev nD) :
    (dats m 0 c).arrAt 3 cfg0.N = Cert.Attn.GA (V m c main_arg0) (V m c main_arg1) :=
  (dats m 0 c).arrAt_eq_of_cover 3 (Cert.Attn.GA (V m c main_arg0) (V m c main_arg1))
    (fun t _ => flushedA_eq m hs c t) coverA

/-! ## The run, read -/

/-- The frame run re-posted: each result array at its whole-array function of the two argument arrays, the arguments
    unchanged. -/
theorem run (hs : PaySoft) (hw : PayWeighted) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = Cert.Attn.GW (m ((c : Thread nD τ).loc main_arg0)) (m ((c : Thread nD τ).loc main_arg1))
      ∧ r.2.mem ((c : Thread nD τ).loc main_v0_1) = Cert.Attn.GA (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalW m hw c), (h c).2.1.trans (finalA m hs c), (h c).2.2⟩)
    (Value.run_blocks m ρ)

end Cert.KernelIdeal.Blocks

end
-- ==== Proof.RefStages.lean ====
/-
  The reference program's values, stage by stage, as pure functions of the two argument arrays: the batched
  similarity, the rectifier, the column norm over the queries, the normalised and temperature-scaled scores laid
  out (batch, query, source), their row maximum, exponentials, row sums, the softmax, and from it the two results
  (the weighted context, and the softmax transposed back to (batch, source, query)).
  Each stage is the program's own operation applied to the earlier stages, nothing more.
-/
import proofs.«120046_j2662879723582_1_alg».proof.Proof.Gen.ReferenceIdeal

noncomputable section

namespace Cert.ReferenceIdeal.Stages

open Cert.ReferenceIdeal Idealize.ShloMosaic
open Cert.ReferenceIdeal.Facts₀

variable {F : FTy → Type} [FloatOps F]
variable (x0 : FVec F S256x256x1024 .f32) (x1 : FVec F S256x512x1024 .f32)

/-- The batched similarity, laid out (batch, source, query). -/
def sim : FVec F S256x512x256 .f32 :=
  Host.dotGeneral dot_S256x512x1024_S256x256x1024_S256x512x256_2_2_1_1_0_0 none x1 x0

/-- The leaky rectifier of the similarity. -/
def rect : FVec F S256x512x256 .f32 :=
  select (cmpf .oge (sim x0 x1) (broadcastInDim S256x512x256 ![] bcast_S_S256x512x256 (constant S_ .f32 0x00000000#32)))
    (sim x0 x1)
    (mulf (broadcastInDim S256x512x256 ![] bcast_S_S256x512x256 (id (constant S_ .f32 0x3DCCCCCD#32))) (sim x0 x1))

/-- The guarded length of each (batch, source) column over the queries, kept with a unit last axis. -/
def colnorm : FVec F S256x512x1 .f32 :=
  addf (Host.sqrt (broadcastInDim S256x512x1 ![0, 1] bcast_S256x512_S256x512x1_0_1
      (Host.reduceAdd (mulf (rect x0 x1) (rect x0 x1)) (constant S_ .f32 0x00000000#32) reducesTo_S256x512x256_S256x512_d2 h_S_)))
    (broadcastInDim S256x512x1 ![] bcast_S_S256x512x1 (constant S_ .f32 0x322BCC77#32))

/-- The normalised scores, transposed to (batch, query, source) and multiplied by the temperature. -/
def logits : FVec F S256x256x512 .f32 :=
  mulf (transpose S256x256x512 [0, 2, 1]
      (Host.divf (rect x0 x1) (broadcastInDim S256x512x256 ![0, 1, 2] bcast_S256x512x1_S256x512x256_0_1_2 (colnorm x0 x1)))
      transposes_S256x512x256_S256x256x512_0_2_1)
    (broadcastInDim S256x256x512 ![] bcast_S_S256x256x512 (constant S_ .f32 0x41100000#32))

/-- The maximum of each (batch, query) row over the sources. -/
def rowmax : FVec F S256x256 .f32 :=
  maximumf (broadcastInDim S256x256 ![] bcast_S_S256x256 (constant S_ .f32 0xFF800000#32))
    (Host.reduce FloatOps.maximumf (logits x0 x1) (constant S_ .f32 0xFF800000#32) reducesTo_S256x256x512_S256x256_d2 h_S_)

/-- The exponentials of the logits less their row maximum. -/
def expo : FVec F S256x256x512 .f32 :=
  Host.exp (subf (logits x0 x1)
    (broadcastInDim S256x256x512 ![0, 1, 2] bcast_S256x256x1_S256x256x512_0_1_2
      (broadcastInDim S256x256x1 ![0, 1] bcast_S256x256_S256x256x1_0_1 (rowmax x0 x1))))

/-- The softmax over the sources. -/
def soft : FVec F S256x256x512 .f32 :=
  Host.divf (expo x0 x1)
    (broadcastInDim S256x256x512 ![0, 1, 2] bcast_S256x256x1_S256x256x512_0_1_2
      (broadcastInDim S256x256x1 ![0, 1] bcast_S256x256_S256x256x1_0_1
        (Host.reduceAdd (expo x0 x1) (constant S_ .f32 0x00000000#32) reducesTo_S256x256x512_S256x256_d2 h_S_)))

/-- First result: the attention-weighted context, (batch, query, feature). -/
def weighted : FVec F S256x256x1024 .f32 :=
  Host.dotGeneral dot_S256x256x512_S256x512x1024_S256x256x1024_2_1_1_2_0_0 none (soft x0 x1) x1

/-- Second result: the softmax transposed back to (batch, source, query). -/
def attnT : FVec F S256x512x256 .f32 :=
  transpose S256x512x256 [0, 2, 1] (soft x0 x1) transposes_S256x256x512_S256x512x256_0_2_1

end Cert.ReferenceIdeal.Stages

end
-- ==== Proof.RefRun.lean ====
/-
  The reference program's run. Its @main is a straight line of tensor operations once the two outlined functions
  (the leaky rectifier, and the selection it calls) are unfolded at their call sites: the list `ops` below, the
  callee's operations written over the call's own buffers. Every weakly fair execution terminates with each buffer at
  the fold of the operations over the launch contents; read at the two result buffers the fold is the stage
  functions of RefStages (the weighted context and the transposed softmax), and the two arguments are unchanged.
-/
import proofs.«120046_j2662879723582_1_alg».proof.Proof.RefStages
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's thirty-nine operations in order, the call unfolded: the similarity and the slope constant; the leaky
    rectifier's seven (the zero and its broadcast, the comparison, the slope converted to its own type and broadcast,
    the product, and the selection's one operation, which writes the call's result); then the column norm, the
    normalised and scaled scores, the row maximum, the exponentials, their row sums, the softmax, and the two results. -/
abbrev ops : List (HloOp τ sig (Elt F)) :=
  [ StableHlo.binary main_arg1 main_arg0 main_v0 ((fun l r => Host.dotGeneral dot_S256x512x1024_S256x256x1024_S256x512x256_2_2_1_1_0_0 none l r) : (⟨S256x512x1024, .f32⟩ : BufTy).Contents (Elt F) → (⟨S256x256x1024, .f32⟩ : BufTy).Contents (Elt F) → (⟨S256x512x256, .f32⟩ : BufTy).Contents (Elt F)),
    StableHlo.nullary main_cst (constant S_ .f32 0x3DCCCCCD#32),
    StableHlo.TRef.nullary main_call0.cst (constant S_ .f32 0x00000000#32),
    StableHlo.TRef.unary main_call0.cst main_call0.v0 (broadcastInDim S256x512x256 ![] bcast_S_S256x512x256),
    StableHlo.TRef.binary (TRef.of main_v0 : TRef sig ⟨S256x512x256, .f32⟩) main_call0.v0 main_call0.v1 (cmpf .oge),
    StableHlo.TRef.unary (TRef.of main_cst : TRef sig ⟨S_, .f32⟩) main_call0.v2 id,
    StableHlo.TRef.unary main_call0.v2 main_call0.v3 (broadcastInDim S256x512x256 ![] bcast_S_S256x512x256),
    StableHlo.TRef.binary main_call0.v3 (TRef.of main_v0 : TRef sig ⟨S256x512x256, .f32⟩) main_call0.v4 mulf,
    StableHlo.TRef.ternary main_call0.v1 (TRef.of main_v0 : TRef sig ⟨S256x512x256, .f32⟩) main_call0.v4 main_call0.call0.v0 select,
    StableHlo.binary main_v1 main_v1 main_v2 (mulf : (⟨S256x512x256, .f32⟩ : BufTy).Contents (Elt F) → (⟨S256x512x256, .f32⟩ : BufTy).Contents (Elt F) → (⟨S256x512x256, .f32⟩ : BufTy).Contents (Elt F)),
    StableHlo.nullary main_cst_0 (constant S_ .f32 0x00000000#32),
    StableHlo.binary main_v2 main_cst_0 main_v3 ((fun x v => Host.reduceAdd x v reducesTo_S256x512x256_S256x512_d2 h_S_) : (⟨S256x512x256, .f32⟩ : BufTy).Contents (Elt F) → (⟨S_, .f32⟩ : BufTy).Contents (Elt F) → (⟨S256x512, .f32⟩ : BufTy).Contents (Elt F)),
    StableHlo.unary main_v3 main_v4 (broadcastInDim S256x512x1 ![0, 1] bcast_S256x512_S256x512x1_0_1 : (⟨S256x512, .f32⟩ : BufTy).Contents (Elt F) → (⟨S256x512x1, .f32⟩ : BufTy).Contents (Elt F)),
    StableHlo.unary main_v4 main_v5 (Host.sqrt : (⟨S256x512x1, .f32⟩ : BufTy).Contents (Elt F) → (⟨S256x512x1, .f32⟩ : BufTy).Contents (Elt F)),
    StableHlo.nullary main_cst_1 (constant S_ .f32 0x322BCC77#32),
    StableHlo.unary main_cst_1 main_v6 (broadcastInDim S256x512x1 ![] bcast_S_S256x512x1 : (⟨S_, .f32⟩ : BufTy).Contents (Elt F) → (⟨S256x512x1, .f32⟩ : BufTy).Contents (Elt F)),
    StableHlo.binary main_v5 main_v6 main_v7 (addf : (⟨S256x512x1, .f32⟩ : BufTy).Contents (Elt F) → (⟨S256x512x1, .f32⟩ : BufTy).Contents (Elt F) → (⟨S256x512x1, .f32⟩ : BufTy).Contents (Elt F)),
    StableHlo.unary main_v7 main_v8 (broadcastInDim S256x512x256 ![0, 1, 2] bcast_S256x512x1_S256x512x256_0_1_2 : (⟨S256x512x1, .f32⟩ : BufTy).Contents (Elt F) → (⟨S256x512x256, .f32⟩ : BufTy).Contents (Elt F)),
    StableHlo.binary main_v1 main_v8 main_v9 (Host.divf : (⟨S256x512x256, .f32⟩ : BufTy).Contents (Elt F) → (⟨S256x512x256, .f32⟩ : BufTy).Contents (Elt F) → (⟨S256x512x256, .f32⟩ : BufTy).Contents (Elt F)),
    StableHlo.unary main_v9 main_v10 ((transpose S256x256x512 [0, 2, 1] · transposes_S256x512x256_S256x256x512_0_2_1) : (⟨S256x512x256, .f32⟩ : BufTy).Contents (Elt F) → (⟨S256x256x512, .f32⟩ : BufTy).Contents (Elt F)),
    StableHlo.nullary main_cst_2 (constant S_ .f32 0x41100000#32),
    StableHlo.unary main_cst_2 main_v11 (broadcastInDim S256x256x512 ![] bcast_S_S256x256x512 : (⟨S_, .f32⟩ : BufTy).Contents (Elt F) → (⟨S256x256x512, .f32⟩ : BufTy).Contents (Elt F)),
    StableHlo.binary main_v10 main_v11 main_v12 (mulf : (⟨S256x256x512, .f32⟩ : BufTy).Contents (Elt F) → (⟨S256x256x512, .f32⟩ : BufTy).Contents (Elt F) → (⟨S256x256x512, .f32⟩ : BufTy).Contents (Elt F)),
    StableHlo.nullary main_cst_3 (constant S_ .f32 0xFF800000#32),
    StableHlo.binary main_v12 main_cst_3 main_v13 ((fun x v => Host.reduce FloatOps.maximumf x v reducesTo_S256x256x512_S256x256_d2 h_S_) : (⟨S256x256x512, .f32⟩ : BufTy).Contents (Elt F) → (⟨S_, .f32⟩ : BufTy).Contents (Elt F) → (⟨S256x256, .f32⟩ : BufTy).Contents (Elt F)),
    StableHlo.nullary main_cst_4 (constant S_ .f32 0xFF800000#32),
    StableHlo.unary main_cst_4 main_v14 (broadcastInDim S256x256 ![] bcast_S_S256x256 : (⟨S_, .f32⟩ : BufTy).Contents (Elt F) → (⟨S256x256, .f32⟩ : BufTy).Contents (Elt F)),
    StableHlo.binary main_v14 main_v13 main_v15 (maximumf : (⟨S256x256, .f32⟩ : BufTy).Contents (Elt F) → (⟨S256x256, .f32⟩ : BufTy).Contents (Elt F) → (⟨S256x256, .f32⟩ : BufTy).Contents (Elt F)),
    StableHlo.unary main_v15 main_v16 (broadcastInDim S256x256x1 ![0, 1] bcast_S256x256_S256x256x1_0_1 : (⟨S256x256, .f32⟩ : BufTy).Contents (Elt F) → (⟨S256x256x1, .f32⟩ : BufTy).Contents (Elt F)),
    StableHlo.unary main_v16 main_v17 (broadcastInDim S256x256x512 ![0, 1, 2] bcast_S256x256x1_S256x256x512_0_1_2 : (⟨S256x256x1, .f32⟩ : BufTy).Contents (Elt F) → (⟨S256x256x512, .f32⟩ : BufTy).Contents (Elt F)),
    StableHlo.binary main_v12 main_v17 main_v18 (subf : (⟨S256x256x512, .f32⟩ : BufTy).Contents (Elt F) → (⟨S256x256x512, .f32⟩ : BufTy).Contents (Elt F) → (⟨S256x256x512, .f32⟩ : BufTy).Contents (Elt F)),
    StableHlo.unary main_v18 main_v19 (Host.exp : (⟨S256x256x512, .f32⟩ : BufTy).Contents (Elt F) → (⟨S256x256x512, .f32⟩ : BufTy).Contents (Elt F)),
    StableHlo.nullary main_cst_5 (constant S_ .f32 0x00000000#32),
    StableHlo.binary main_v19 main_cst_5 main_v20 ((fun x v => Host.reduceAdd x v reducesTo_S256x256x512_S256x256_d2 h_S_) : (⟨S256x256x512, .f32⟩ : BufTy).Contents (Elt F) → (⟨S_, .f32⟩ : BufTy).Contents (Elt F) → (⟨S256x256, .f32⟩ : BufTy).Contents (Elt F)),
    StableHlo.unary main_v20 main_v21 (broadcastInDim S256x256x1 ![0, 1] bcast_S256x256_S256x256x1_0_1 : (⟨S256x256, .f32⟩ : BufTy).Contents (Elt F) → (⟨S256x256x1, .f32⟩ : BufTy).Contents (Elt F)),
    StableHlo.unary main_v21 main_v22 (broadcastInDim S256x256x512 ![0, 1, 2] bcast_S256x256x1_S256x256x512_0_1_2 : (⟨S256x256x1, .f32⟩ : BufTy).Contents (Elt F) → (⟨S256x256x512, .f32⟩ : BufTy).Contents (Elt F)),
    StableHlo.binary main_v19 main_v22 main_v23 (Host.divf : (⟨S256x256x512, .f32⟩ : BufTy).Contents (Elt F) → (⟨S256x256x512, .f32⟩ : BufTy).Contents (Elt F) → (⟨S256x256x512, .f32⟩ : BufTy).Contents (Elt F)),
    StableHlo.binary main_v23 main_arg1 main_v24 ((fun l r => Host.dotGeneral dot_S256x256x512_S256x512x1024_S256x256x1024_2_1_1_2_0_0 none l r) : (⟨S256x256x512, .f32⟩ : BufTy).Contents (Elt F) → (⟨S256x512x1024, .f32⟩ : BufTy).Contents (Elt F) → (⟨S256x256x1024, .f32⟩ : BufTy).Contents (Elt F)),
    StableHlo.unary main_v23 main_v25 ((transpose S256x512x256 [0, 2, 1] · transposes_S256x256x512_S256x512x256_0_2_1) : (⟨S256x256x512, .f32⟩ : BufTy).Contents (Elt F) → (⟨S256x512x256, .f32⟩ : BufTy).Contents (Elt F)) ]

set_option maxRecDepth 1024 in
/-- @main is that straight line: the two functions' definitions unfolded at their calls, both sides are one chain of
    steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub ..⟩

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

-- The reductions, the transposes and the broadcasts stay folded while the two sides are compared: the fold read at a
-- result buffer is the stage's own composition of these operations, so the comparison never has to look inside one.
attribute [local irreducible] Host.reduce Host.reduceAdd transpose broadcastInDim in
/-- The fold at the first result buffer is the weighted context: each operation's result is its function of its
    operands' contents, and the typed references' transports are the identity at these literal buffers. -/
theorem weighted_eq (V : Valuation τ sig (Elt F)) :
    after ops V (main_v24 : DevRef τ sig)
      = Stages.weighted (V (main_arg0 : DevRef τ sig)) (V (main_arg1 : DevRef τ sig)) := by
  after_results_simp
  rfl

attribute [local irreducible] Host.reduce Host.reduceAdd transpose broadcastInDim in
/-- The fold at the second result buffer is the softmax transposed back to (batch, source, query). -/
theorem attnT_eq (V : Valuation τ sig (Elt F)) :
    after ops V (main_v25 : DevRef τ sig)
      = Stages.attnT (V (main_arg0 : DevRef τ sig)) (V (main_arg1 : DevRef τ sig)) := by
  after_results_simp
  rfl

/-- On every device, for any float values, from any memory with zero counters: every weakly fair execution of
    @main terminates with the two results at the stage functions of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = Stages.weighted (m ((c.tc : Thread nD τ).loc main_arg0)) (m ((c.tc : Thread nD τ).loc main_arg1))
      ∧ r.2.mem ((c.tc : Thread nD τ).loc main_v25) = Stages.attnT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (weighted_eq _), (h c main_v25).trans (attnT_eq _),
      (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefRead.lean ====
/-
  The reference program's stages read index by index, in the specification's words.

  For batch b the reference forms the similarity laid out (source, query) — the inner product of context row s
  with query row q, the kernel's product with the factors exchanged —, rectifies it with the weak comparison
  (equal to the strict one: at zero both branches give zero), divides by the guarded column length over the
  queries, transposes to (query, source), scales, subtracts each row's maximum (started from the bottom word and
  compared with it once more, which changes nothing), exponentiates, divides by the row sum, and contracts the
  result with the context rows. Each lemma reads one stage at a coordinate.
-/
import proofs.«120046_j2662879723582_1_alg».proof.Proof.RefStages
import proofs.«120046_j2662879723582_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Read

open Cert.ReferenceIdeal Cert.ReferenceIdeal.Facts₀ Cert.ReferenceIdeal.Stages
open Idealize.ShloMosaic Idealize.ShloMosaic.ValueIdx Cert.Attn

/-! ## Small facts the stages are read with -/

section Tools
variable {α : Type}

/-- An (a × b) array given a trailing unit axis reads, at (i, j, u), the array at (i, j). -/
theorem bcast_ab_ab1_apply {a b : ℕ} (h : (⟨2, ![a, b]⟩ : Shape).BroadcastsInDim ⟨3, ![a, b, 1]⟩ ![0, 1])
    (x : (⟨2, ![a, b]⟩ : Shape).Idx → α) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An (a × b × 1) array broadcast along its unit axis to a × b × c reads, at (i, j, k), the array at (i, j, 0). -/
theorem bcast_ab1_abc_apply {a b c : ℕ} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Tools

theorem ofBool_decide_eq_one (p : Prop) [Decidable p] : BitVec.ofBool (decide p) = 1#1 ↔ p := by
  by_cases h : p <;> simp [h]

/-- The reference's rectifier on one element: select by "at least zero" between x and slope · x. -/
theorem leaky_select_ge (x z c : EReal) (hz : z = 0) (hc : c = slope) :
    Scalar.select (FloatOps.cmpf (F := Ideal) (φ := .f32) .oge x z) x (FloatOps.mulf (F := Ideal) (φ := .f32) c x) = leaky x := by
  subst hz hc
  rw [← leaky_of_le]
  unfold Scalar.select
  rw [Ideal.cmpf_def]
  show (if BitVec.ofBool (decide ((0 : EReal) ≤ x)) = 1#1 then x else slope * x) = _
  by_cases h : (0 : EReal) ≤ x
  · rw [if_pos ((ofBool_decide_eq_one _).mpr h), if_pos h]
  · rw [if_neg (fun hh => h ((ofBool_decide_eq_one _).mp hh)), if_neg h]

variable (x0 : FVec Ideal S256x256x1024 .f32) (x1 : FVec Ideal S256x512x1024 .f32)

/-- A host sum over the last axis of a 256 × 512 × 256 array from a zero start, at (b, s). -/
theorem sumq_at (v : FVec Ideal S256x512x256 .f32) (b : Fin 256) (s : Fin 512) :
    Host.reduceAdd v (constant S_ .f32 0x00000000#32) reducesTo_S256x512x256_S256x512_d2 h_S_ (ix2 b s)
      = ∑ q : Fin 256, v (ix3 b s q) := by
  rw [hostReduceAdd_apply]
  refine (Ideal.hostReduceAdd_single reducesTo_S256x512x256_S256x512_d2 (by decide) v _ (ix2 b s)).trans ?_
  show Ideal.ofBits .f32 0x00000000#32 + _ = _
  rw [Ideal.ofBits_zero_f32, zero_add]
  refine Finset.sum_congr rfl fun q _ => congrArg v ?_
  funext a
  match a with
  | ⟨0, _⟩ => rfl
  | ⟨1, _⟩ => rfl
  | ⟨2, _⟩ => rfl

/-- A host sum over the last axis of a 256 × 256 × 512 array from a zero start, at (b, q). -/
theorem sums_at (v : FVec Ideal S256x256x512 .f32) (b : Fin 256) (q : Fin 256) :
    Host.reduceAdd v (constant S_ .f32 0x00000000#32) reducesTo_S256x256x512_S256x256_d2 h_S_ (ix2 b q)
      = ∑ s : Fin 512, v (ix3 b q s) := by
  rw [hostReduceAdd_apply]
  refine (Ideal.hostReduceAdd_single reducesTo_S256x256x512_S256x256_d2 (by decide) v _ (ix2 b q)).trans ?_
  show Ideal.ofBits .f32 0x00000000#32 + _ = _
  rw [Ideal.ofBits_zero_f32, zero_add]
  refine Finset.sum_congr rfl fun s _ => congrArg v ?_
  funext a
  match a with
  | ⟨0, _⟩ => rfl
  | ⟨1, _⟩ => rfl
  | ⟨2, _⟩ => rfl

/-- A host maximum over the last axis of a 256 × 256 × 512 array from the bottom word, at (b, q). -/
theorem maxs_at (v : FVec Ideal S256x256x512 .f32) (b : Fin 256) (q : Fin 256) :
    Host.reduce FloatOps.maximumf v (constant S_ .f32 0xFF800000#32) reducesTo_S256x256x512_S256x256_d2 h_S_ (ix2 b q)
      = (Finset.univ : Finset (Fin 512)).fold max bot (fun s => v (ix3 b q s)) := by
  refine (Host.reduce_eq_fold_single FloatOps.maximumf v _ reducesTo_S256x256x512_S256x256_d2 (by decide) h_S_ (ix2 b q)).trans ?_
  refine congrArg (fun f : Fin 512 → EReal => (Finset.univ : Finset (Fin 512)).fold max bot f) (funext fun s => congrArg v ?_)
  funext a
  match a with
  | ⟨0, _⟩ => rfl
  | ⟨1, _⟩ => rfl
  | ⟨2, _⟩ => rfl

/-! ## Each stage at a coordinate -/

-- the host reductions are read only through the lemmas above: nothing below may open their folds
attribute [local irreducible] Host.reduce Host.reduceAdd

/-- The host's square root at an index is the square root of the element. -/
theorem hostSqrt_apply {s : Shape} {φ : FTy} (a : FVec Ideal s φ) (i : s.Idx) : Host.sqrt a i = Ideal.sqrt (a i) := rfl

/-- The similarity at (b, s, q): context row s times query row q, summed over the features. -/
theorem sim_at (b : Fin 256) (s : Fin 512) (q : Fin 256) :
    sim x0 x1 (ix3 b s q) = score (qmat x0 b) (cmat x1 b) q s := by
  unfold sim score qmat cmat
  refine (Ideal.dotGeneral_apply dot_S256x512x1024_S256x256x1024_S256x512x256_2_2_1_1_0_0 none .single x1 x0 (ix3 b s q)).trans ?_
  refine (Equiv.sum_comp (contrEquiv1 dot_S256x512x1024_S256x256x1024_S256x512x256_2_2_1_1_0_0 1024 rfl rfl).symm _).symm.trans ?_
  refine Finset.sum_congr rfl fun d _ => ?_
  have hl : dot_S256x512x1024_S256x256x1024_S256x512x256_2_2_1_1_0_0.lhsIdx (ix3 b s q) ((contrEquiv1 dot_S256x512x1024_S256x256x1024_S256x512x256_2_2_1_1_0_0 1024 rfl rfl).symm d) = ix3 b s d := by
    funext a
    match a with
    | ⟨0, _⟩ => rfl
    | ⟨1, _⟩ => rfl
    | ⟨2, _⟩ => rfl
  have hr : dot_S256x512x1024_S256x256x1024_S256x512x256_2_2_1_1_0_0.rhsIdx (ix3 b s q) ((contrEquiv1 dot_S256x512x1024_S256x256x1024_S256x512x256_2_2_1_1_0_0 1024 rfl rfl).symm d) = ix3 b q d := by
    funext a
    match a with
    | ⟨0, _⟩ => rfl
    | ⟨1, _⟩ => rfl
    | ⟨2, _⟩ => rfl
  rw [hl, hr]
  exact mul_comm _ _

theorem rect_at (b : Fin 256) (s : Fin 512) (q : Fin 256) :
    rect x0 x1 (ix3 b s q) = act (qmat x0 b) (cmat x1 b) q s := by
  unfold act
  rw [← sim_at]
  refine leaky_select_ge _ _ _ ?_ ?_
  · rw [broadcastInDim_scalar_apply]; exact Ideal.ofBits_zero_f32
  · rw [broadcastInDim_scalar_apply]; rfl

theorem colnorm_at (b : Fin 256) (s : Fin 512) (u : Fin 1) :
    colnorm x0 x1 (ix3 b s u) = nrm (qmat x0 b) (cmat x1 b) s := by
  unfold colnorm nrm
  rw [addf_apply, hostSqrt_apply, bcast_ab_ab1_apply, sumq_at, broadcastInDim_scalar_apply, constant_apply]
  refine congrArg (fun z => Ideal.sqrt z + eps) (Finset.sum_congr rfl fun q _ => ?_)
  rw [mulf_apply, rect_at]

theorem logits_at (b : Fin 256) (q : Fin 256) (s : Fin 512) :
    logits x0 x1 (ix3 b q s) = scaled (qmat x0 b) (cmat x1 b) q s := by
  unfold logits scaled
  rw [mulf_apply, transpose_ix3_021_apply, broadcastInDim_scalar_apply, constant_apply, hostDivf_apply,
    bcast_ab1_abc_apply, rect_at, colnorm_at]

theorem rowmax_at (b : Fin 256) (q : Fin 256) :
    rowmax x0 x1 (ix2 b q) = rmax (qmat x0 b) (cmat x1 b) q := by
  unfold rowmax
  rw [maximumf_apply, broadcastInDim_scalar_apply, maxs_at, constant_apply]
  have hf : (fun s : Fin 512 => logits x0 x1 (ix3 b q s)) = fun s => scaled (qmat x0 b) (cmat x1 b) q s :=
    funext fun s => logits_at x0 x1 b q s
  rw [hf]
  exact max_bot_rmax _ _ _

theorem expo_at (b : Fin 256) (q : Fin 256) (s : Fin 512) :
    expo x0 x1 (ix3 b q s) = ex (qmat x0 b) (cmat x1 b) q s := by
  unfold expo ex
  show Ideal.exp (logits x0 x1 (ix3 b q s)
    - broadcastInDim S256x256x512 ![0, 1, 2] bcast_S256x256x1_S256x256x512_0_1_2
        (broadcastInDim S256x256x1 ![0, 1] bcast_S256x256_S256x256x1_0_1 (rowmax x0 x1)) (ix3 b q s)) = _
  rw [bcast_ab1_abc_apply, bcast_ab_ab1_apply, logits_at, rowmax_at]

theorem soft_at (b : Fin 256) (q : Fin 256) (s : Fin 512) :
    soft x0 x1 (ix3 b q s) = prob (qmat x0 b) (cmat x1 b) q s := by
  unfold soft prob den
  show Ideal.div (expo x0 x1 (ix3 b q s))
    (broadcastInDim S256x256x512 ![0, 1, 2] bcast_S256x256x1_S256x256x512_0_1_2
      (broadcastInDim S256x256x1 ![0, 1] bcast_S256x256_S256x256x1_0_1
        (Host.reduceAdd (expo x0 x1) (constant S_ .f32 0x00000000#32) reducesTo_S256x256x512_S256x256_d2 h_S_)) (ix3 b q s)) = _
  rw [bcast_ab1_abc_apply, bcast_ab_ab1_apply, sums_at, expo_at]
  exact congrArg (Ideal.div _) (Finset.sum_congr rfl fun s' _ => expo_at x0 x1 b q s')

/-- The weighted context at (b, q, d): the softmax row q against the context's feature column d. -/
theorem weighted_at (b : Fin 256) (q : Fin 256) (d : Fin 1024) :
    weighted x0 x1 (ix3 b q d) = wsum (qmat x0 b) (cmat x1 b) q d := by
  unfold weighted wsum
  refine (Ideal.dotGeneral_apply dot_S256x256x512_S256x512x1024_S256x256x1024_2_1_1_2_0_0 none .single (soft x0 x1) x1 (ix3 b q d)).trans ?_
  refine (Equiv.sum_comp (contrEquiv1 dot_S256x256x512_S256x512x1024_S256x256x1024_2_1_1_2_0_0 512 rfl rfl).symm _).symm.trans ?_
  refine Finset.sum_congr rfl fun s _ => ?_
  have hl : dot_S256x256x512_S256x512x1024_S256x256x1024_2_1_1_2_0_0.lhsIdx (ix3 b q d) ((contrEquiv1 dot_S256x256x512_S256x512x1024_S256x256x1024_2_1_1_2_0_0 512 rfl rfl).symm s) = ix3 b q s := by
    funext a
    match a with
    | ⟨0, _⟩ => rfl
    | ⟨1, _⟩ => rfl
    | ⟨2, _⟩ => rfl
  have hr : dot_S256x256x512_S256x512x1024_S256x256x1024_2_1_1_2_0_0.rhsIdx (ix3 b q d) ((contrEquiv1 dot_S256x256x512_S256x512x1024_S256x256x1024_2_1_1_2_0_0 512 rfl rfl).symm s) = ix3 b s d := by
    funext a
    match a with
    | ⟨0, _⟩ => rfl
    | ⟨1, _⟩ => rfl
    | ⟨2, _⟩ => rfl
  rw [hl, hr, soft_at]
  rfl

theorem attnT_at (b : Fin 256) (s : Fin 512) (q : Fin 256) :
    attnT x0 x1 (ix3 b s q) = prob (qmat x0 b) (cmat x1 b) q s := by
  unfold attnT
  rw [transpose_ix3_021_apply, soft_at]

/-! ## The two results as whole arrays -/

/-- The reference's first result is the specification's weighted context. -/
theorem weighted_eq : weighted x0 x1 = GW x0 x1 := by
  funext i
  obtain ⟨b, q, d, rfl⟩ : ∃ (b : Fin 256) (q : Fin 256) (d : Fin 1024), i = ix3 b q d := ⟨i 0, i 1, i 2, eq_ix3 i⟩
  exact weighted_at x0 x1 b q d

/-- The reference's second result is the specification's transposed attention. -/
theorem attnT_eq : attnT x0 x1 = GA x0 x1 := by
  funext i
  obtain ⟨b, s, q, rfl⟩ : ∃ (b : Fin 256) (s : Fin 512) (q : Fin 256), i = ix3 b s q := ⟨i 0, i 1, i 2, eq_ix3 i⟩
  exact attnT_at x0 x1 b s q

end Cert.ReferenceIdeal.Read

end
-- ==== Proof.lean ====
/-
  The five claims for the scan-attention kernel against its jnp reference.

  Both idealized programs compute, batch by batch, the same chain on the extended reals: the similarity of every
  query with every source, a leaky rectifier, division by the guarded length of each source's column over the
  queries, a temperature, a softmax over the sources, and from it the attention-weighted context and the
  transposed attention. The specification (Spec.lean) states that chain once, index by index. The kernel reaches it
  one batch per grid point (KPay.lean reads the body's arithmetic at a coordinate; KBlocks.lean assembles the 256
  written blocks into the two whole result arrays); the reference reaches it over whole batched arrays (RefRun.lean
  runs its operations; RefRead.lean reads each stage at a coordinate). Where the two spellings differ — the order
  of the two factors in the similarity, a strict against a weak comparison in the rectifier (equal at zero, where
  both branches give zero), one more comparison of the row maximum with the word it started from, and the order of
  the sums — commutativity and the order's laws on the extended reals join them; no finiteness of the inputs is
  used. The three frames are the generated frames (the reference's is its run with the results dropped); the
  idealization rewrote nothing, so the kernel's own text read at the ideal values is its idealization.
-/
import proofs.«120046_j2662879723582_1_alg».proof.Defs
import proofs.«120046_j2662879723582_1_alg».proof.Proof.Gen.Kernel
import proofs.«120046_j2662879723582_1_alg».proof.Proof.Gen.Kernel.Frame
import proofs.«120046_j2662879723582_1_alg».proof.Proof.Gen.KernelIdeal
import proofs.«120046_j2662879723582_1_alg».proof.Proof.Gen.KernelIdeal.Frame
import proofs.«120046_j2662879723582_1_alg».proof.Proof.Gen.KernelIdeal.Value
import proofs.«120046_j2662879723582_1_alg».proof.Proof.Gen.ReferenceIdeal
import proofs.«120046_j2662879723582_1_alg».proof.Proof.Gen.Pre_finite_inputs
import proofs.«120046_j2662879723582_1_alg».proof.Proof.KPay
import proofs.«120046_j2662879723582_1_alg».proof.Proof.KBlocks
import proofs.«120046_j2662879723582_1_alg».proof.Proof.RefRun
import proofs.«120046_j2662879723582_1_alg».proof.Proof.RefRead
import Idealize.ShloMosaic.Adequacy
import Idealize.ShloMosaic.Init

noncomputable section

namespace Cert.Proof

open Idealize.ShloMosaic Idealize.SL.Sem

/-- The body's softmax block is the specification's softmax of the two loaded blocks. -/
theorem paySoft : Cert.KernelIdeal.Blocks.PaySoft :=
  fun P0 P1 q s => Cert.KernelIdeal.Pay.pay3_at P0 P1 q s

/-- The body's stored weighted block is the specification's weighted sum of the two loaded blocks. -/
theorem payWeighted : Cert.KernelIdeal.Blocks.PayWeighted :=
  fun P0 P1 q d => Cert.KernelIdeal.Pay.pay4_at P0 P1 0 q d

theorem frame_k : Cert.frame_Kernel := fun m ρ _ => Cert.Kernel.Gen.frame m ρ
theorem frame_ki : Cert.frame_KernelIdeal := fun m ρ _ => Cert.KernelIdeal.Gen.frame m ρ

/-- The reference's frame: its run, with what it says of the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- From memories that agree on the two arguments both programs end with the specification's two arrays of those
    arguments: the kernel's blocks assemble to them, and the reference's last two stages are them index by index. -/
theorem algebraic : Cert.algebraic_KernelIdeal_ReferenceIdeal := by
  intro m ρ m' ρ' _ hagree
  refine ⟨_, _, Cert.KernelIdeal.Blocks.run paySoft payWeighted m ρ, ?_⟩
  refine (θ_run Cert.ReferenceIdeal.defs _ _).mono (fun _ h c => ⟨?_, ?_, (h c).2.2⟩)
    (Cert.ReferenceIdeal.RefRun.run (F := Ideal) m' ρ')
  · rw [(h c).1, Cert.ReferenceIdeal.Read.weighted_eq, (hagree c).1, (hagree c).2]
  · rw [(h c).2.1, Cert.ReferenceIdeal.Read.attnT_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
